-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v91)) (v1 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_v45) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000x64 : Shape := ⟨2, ![100000, 64]⟩
abbrev S10000x128 : Shape := ⟨2, ![10000, 128]⟩
abbrev S10000x64 : Shape := ⟨2, ![10000, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩

abbrev nBuf : Space → Nat
  | .hbm => 124
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000x64, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x32, .f32⟩
  | .hbm, ⟨66, _⟩ => ⟨S100000, .i32⟩
  | .hbm, ⟨67, _⟩ => ⟨S1x1600000, .i32⟩
  | .hbm, ⟨68, _⟩ => ⟨S1600000, .i32⟩
  | .hbm, ⟨69, _⟩ => ⟨S1700000, .i32⟩
  | .hbm, ⟨70, _⟩ => ⟨S1x1600000, .i32⟩
  | .hbm, ⟨71, _⟩ => ⟨S1600000, .i32⟩
  | .hbm, ⟨72, _⟩ => ⟨S1700000, .i32⟩
  | .hbm, ⟨73, _⟩ => ⟨S_, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000, .f32⟩
  | .hbm, ⟨105, _⟩ => ⟨S1700000, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x32, .f32⟩
  | .hbm, ⟨115, _⟩ => ⟨S1700000x1, .f32⟩
  | .hbm, ⟨116, _⟩ => ⟨S1700000x32, .f32⟩
  | .hbm, ⟨117, _⟩ => ⟨S1700000x32, .f32⟩
  | .hbm, ⟨118, _⟩ => ⟨S_, .f32⟩
  | .hbm, ⟨119, _⟩ => ⟨S100000x32, .f32⟩
  | .hbm, ⟨120, _⟩ => ⟨S1700000x1, .i32⟩
  | .hbm, ⟨121, _⟩ => ⟨S100000x32, .f32⟩
  | .hbm, ⟨122, _⟩ => ⟨S1x32, .f32⟩
  | .hbm, ⟨123, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S1x32, .f32⟩
  | .local _ .vmem, ⟨18, _⟩ => ⟨S10000x32, .f32⟩
  | .local _ .vmem, ⟨19, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_call1_v0 : Ref sig .tc := ⟨.hbm, 84, rfl⟩
abbrev main_call1_v1 : Ref sig .tc := ⟨.hbm, 85, rfl⟩
abbrev main_v61 : Ref sig .tc := ⟨.hbm, 86, rfl⟩
abbrev main_c_13 : Ref sig .tc := ⟨.hbm, 87, rfl⟩
abbrev main_v62 : Ref sig .tc := ⟨.hbm, 88, rfl⟩
abbrev main_v63 : Ref sig .tc := ⟨.hbm, 89, rfl⟩
abbrev main_c_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_15 : Ref sig .tc := ⟨.hbm, 96, rfl⟩
abbrev main_v69 : Ref sig .tc := ⟨.hbm, 97, rfl⟩
abbrev main_v70 : Ref sig .tc := ⟨.hbm, 98, rfl⟩
abbrev main_c_16 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_17 : Ref sig .tc := ⟨.hbm, 106, rfl⟩
abbrev main_v77 : Ref sig .tc := ⟨.hbm, 107, rfl⟩
abbrev main_v78 : Ref sig .tc := ⟨.hbm, 108, rfl⟩
abbrev main_c_18 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_19 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  dot_S10000x128_S128x64_S10000x64_1_0_0_1_n_n_wf : DotDims.WF S10000x128 S128x64 S10000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S100000x32.size a
  hwx3_2 : ∀ i : grid3.Coords, EltTy.bits .f32 = 32 ∨ (Rect.block (s := S100000x32) S10000x32.size (cc3_transform_2 i) (hinb3_2 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v89) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v90) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v91) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000x64 : Shape := ⟨2, ![100000, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x32, .f32⟩
  | 5 => ⟨S32, .f32⟩
  | 6 => ⟨S100000x64, .f32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x64, .f32⟩
  | 56 => ⟨S1700000x1, .f32⟩
  | 57 => ⟨S1700000x64, .f32⟩
  | 58 => ⟨S1700000x64, .f32⟩
  | 59 => ⟨S_, .f32⟩
  | 60 => ⟨S100000x64, .f32⟩
  | 61 => ⟨S1700000x1, .i32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x32, .f32⟩
  | 70 => ⟨S100000, .i32⟩
  | 71 => ⟨S1x1600000, .i32⟩
  | 72 => ⟨S1600000, .i32⟩
  | 73 => ⟨S1700000, .i32⟩
  | 74 => ⟨S1x1600000, .i32⟩
  | 75 => ⟨S1600000, .i32⟩
  | 76 => ⟨S1700000, .i32⟩
  | 77 => ⟨S_, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S1700000, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x32, .f32⟩
  | 119 => ⟨S1700000x1, .f32⟩
  | 120 => ⟨S1700000x32, .f32⟩
  | 121 => ⟨S1700000x32, .f32⟩
  | 122 => ⟨S_, .f32⟩
  | 123 => ⟨S100000x32, .f32⟩
  | 124 => ⟨S1700000x1, .i32⟩
  | 125 => ⟨S100000x32, .f32⟩
  | 126 => ⟨S1x32, .f32⟩
  | 127 => ⟨S100000x32, .f32⟩
  | _ => ⟨S100000x128, .f32⟩

abbrev hbmTy0_1 (i : Nat) : BufTy := match i % 128 with
  | 0 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.Spec.lean ====
/-
  Two graph-convolution layers, each a linear map of the node features, a degree-normalised sum over the
  incoming edges (every node also its own neighbour), a bias, and after the first layer a rectifier:

      out₁ = max (A (X · W₁) + b₁) 0          out₀ = A (out₁ · W₂) + b₂

  where `A` sends node features `h` to the array whose row `r` is the sum, over the edges `e` that end in `r`, of
  `h[src e] · dinv[src e] · dinv[dst e]`, `dinv` the inverse square root of the in-degree.  Both programs compute
  `A` by the same chain of host operations from `h` and the edge list, so `A` is carried here as ONE function of
  `h` and the edge list, spelt once by its operations and never opened: the two programs differ only in how the
  products `X · W` and the bias rows are computed, and those are stated index by index.

  This module states the four pieces as functions of arrays (`mm1`, `biasRelu64`, `mm2`, `bias32`), the two
  aggregations (`agg64`, `agg32`), and that the reference program's stages are these functions.
-/
import proofs.«113141_j6502580486167_1_alg».proof.Proof.RefRead

noncomputable section

namespace Cert.GCN

open Cert.ReferenceIdeal Cert.ReferenceIdeal.ReadP Idealize.ShloMosaic Idealize.ShloMosaic.TcCoe

variable {F : FTy → Type} [FloatOps F]

/-! ## The aggregation over the edges, as one function of the node features and the edge list -/

/-- Layer 1: the rows `h[src e]`, each scaled by `dinv[src e] · dinv[dst e]`, summed into row `dst e` of a zero
    array of 64 columns (the edge list is the argument's two rows, each followed by the nodes `0 … 99999`). -/
def agg64 (h : (⟨S100000x64, .f32⟩ : BufTy).Contents (Elt F)) (e : (⟨S2x1600000, .i32⟩ : BufTy).Contents (Elt F)) :
    (⟨S100000x64, .f32⟩ : BufTy).Contents (Elt F) :=
  Host.scatterAdd scatter_S100000x64_S1700000x1_S1700000x64_1_0_0_1 (val_main_v41 (F := F)) (val_main_v42 (F := F) e)
    (mulf (Host.gather gather_S100000x64_S1700000x1_S1700000x64_1_0_n_n_0_1_164 h (val_main_v36 (F := F) e)) (val_main_v39 (F := F) e))

/-- Layer 2: the same sum over the same edges, on features of 32 columns. -/
def agg32 (h : (⟨S100000x32, .f32⟩ : BufTy).Contents (Elt F)) (e : (⟨S2x1600000, .i32⟩ : BufTy).Contents (Elt F)) :
    (⟨S100000x32, .f32⟩ : BufTy).Contents (Elt F) :=
  Host.scatterAdd scatter_S100000x32_S1700000x1_S1700000x32_1_0_0_1 (val_main_v89 (F := F)) (val_main_v90 (F := F) e)
    (mulf (Host.gather gather_S100000x32_S1700000x1_S1700000x32_1_0_n_n_0_1_132 h (val_main_v84 (F := F) e)) (val_main_v87 (F := F) e))

/-- The reference's first aggregate is `agg64` of its first product. -/
theorem ref_agg64 (x0 : (⟨S100000x128, .f32⟩ : BufTy).Contents (Elt F)) (x1 : (⟨S2x1600000, .i32⟩ : BufTy).Contents (Elt F))
    (x2 : (⟨S128x64, .f32⟩ : BufTy).Contents (Elt F)) :
    val_main_v43 (F := F) x0 x1 x2 = agg64 (val_main_v0 (F := F) x0 x2) x1 := by
  unfold val_main_v43 val_main_v40 val_main_v37 agg64; rfl

/-- The reference's second aggregate is `agg32` of its second product. -/
theorem ref_agg32 (x0 : (⟨S100000x128, .f32⟩ : BufTy).Contents (Elt F)) (x1 : (⟨S2x1600000, .i32⟩ : BufTy).Contents (Elt F))
    (x2 : (⟨S128x64, .f32⟩ : BufTy).Contents (Elt F)) (x3 : (⟨S64, .f32⟩ : BufTy).Contents (Elt F))
    (x4 : (⟨S64x32, .f32⟩ : BufTy).Contents (Elt F)) :
    val_main_v91 (F := F) x0 x1 x2 x3 x4 = agg32 (val_main_v48 (F := F) x0 x1 x2 x3 x4) x1 := by
  unfold val_main_v91 val_main_v88 val_main_v85 agg32; rfl

/-! ## The dense pieces, index by index -/

/-- `X · W₁`: entry `(r, j)` is the sum over `k < 128` of `X (r, k) · W (k, j)`. -/
def mm1 (X : (⟨S100000x128, .f32⟩ : BufTy).Contents (Elt Ideal)) (W : (⟨S128x64, .f32⟩ : BufTy).Contents (Elt Ideal)) :
    (⟨S100000x64, .f32⟩ : BufTy).Contents (Elt Ideal) :=
  fun i => ∑ k : Fin 128, X (lidx_main_v0 i k) * W (ridx_main_v0 i k)

/-- `H · W₂`: entry `(r, j)` is the sum over `k < 64` of `H (r, k) · W (k, j)`. -/
def mm2 (X : (⟨S100000x64, .f32⟩ : BufTy).Contents (Elt Ideal)) (W : (⟨S64x32, .f32⟩ : BufTy).Contents (Elt Ideal)) :
    (⟨S100000x32, .f32⟩ : BufTy).Contents (Elt Ideal) :=
  fun i => ∑ k : Fin 64, X (lidx_main_v48 i k) * W (ridx_main_v48 i k)

/-- `max (A + b) 0` with the bias a row `[1, 64]`: entry `(r, j)` is `max (A (r, j) + B (0, j)) 0`. -/
def biasRelu64 (A : (⟨S100000x64, .f32⟩ : BufTy).Contents (Elt F)) (B : (⟨S1x64, .f32⟩ : BufTy).Contents (Elt F)) :
    (⟨S100000x64, .f32⟩ : BufTy).Contents (Elt F) :=
  fun i => FloatOps.maximumf (FloatOps.addf (A i) (B (idx_main_v45 i))) (FloatOps.ofBits .f32 0x00000000#32)

/-- `A + b` with the bias a row `[1, 32]`: entry `(r, j)` is `A (r, j) + B (0, j)`. -/
def bias32 (A : (⟨S100000x32, .f32⟩ : BufTy).Contents (Elt F)) (B : (⟨S1x32, .f32⟩ : BufTy).Contents (Elt F)) :
    (⟨S100000x32, .f32⟩ : BufTy).Contents (Elt F) :=
  fun i => FloatOps.addf (A i) (B (idx_main_v93 i))

/-- On the extended reals the reference's first `dot_general` is `mm1`. -/
theorem ref_mm1 (x0 : (⟨S100000x128, .f32⟩ : BufTy).Contents (Elt Ideal)) (x2 : (⟨S128x64, .f32⟩ : BufTy).Contents (Elt Ideal)) :
    val_main_v0 (F := Ideal) x0 x2 = mm1 x0 x2 :=
  funext fun i => val_main_v0_apply x0 x2 i

/-- On the extended reals the reference's second `dot_general` is `mm2` of the first layer's result. -/
theorem ref_mm2 (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal))
    (x4 : (⟨S64x32, .f32⟩ : BufTy).Contents (Elt Ideal)) :
    val_main_v48 (F := Ideal) x0 x1 x2 x3 x4 = mm2 (val_main_v47 (F := Ideal) x0 x1 x2 x3) x4 :=
  funext fun i => val_main_v48_apply x0 x1 x2 x3 x4 i

/-- The reference's first layer ends at `biasRelu64` of its aggregate and its bias row. -/
theorem ref_biasRelu64 (x0 : (⟨S100000x128, .f32⟩ : BufTy).Contents (Elt F)) (x1 : (⟨S2x1600000, .i32⟩ : BufTy).Contents (Elt F))
    (x2 : (⟨S128x64, .f32⟩ : BufTy).Contents (Elt F)) (x3 : (⟨S64, .f32⟩ : BufTy).Contents (Elt F)) :
    val_main_v47 (F := F) x0 x1 x2 x3 = biasRelu64 (val_main_v43 (F := F) x0 x1 x2) (val_main_v44 (F := F) x3) := by
  funext i
  rw [val_main_v47_apply, val_main_v46_apply, val_main_v45_apply, val_main_call1_v0_apply, val_main_call1_cst_apply]
  rfl

/-- The reference's second layer ends at `bias32` of its aggregate and its bias row. -/
theorem ref_bias32 (x0 : (⟨S100000x128, .f32⟩ : BufTy).Contents (Elt F)) (x1 : (⟨S2x1600000, .i32⟩ : BufTy).Contents (Elt F))
    (x2 : (⟨S128x64, .f32⟩ : BufTy).Contents (Elt F)) (x3 : (⟨S64, .f32⟩ : BufTy).Contents (Elt F))
    (x4 : (⟨S64x32, .f32⟩ : BufTy).Contents (Elt F)) (x5 : (⟨S32, .f32⟩ : BufTy).Contents (Elt F)) :
    val_main_v94 (F := F) x0 x1 x2 x3 x4 x5 = bias32 (val_main_v91 (F := F) x0 x1 x2 x3 x4) (val_main_v92 (F := F) x5) := by
  funext i
  rw [val_main_v94_apply, val_main_v93_apply]
  rfl

end Cert.GCN

end
-- ==== Proof.KernelRun.lean ====
/-
  The idealized kernel program's run with its two result arrays NAMED.  The program is four kernel regions among
  stretches of host operations; the generated frame follows every buffer through the ten segments (`Gen.W0 … Gen.W10`:
  the contents at each boundary, a fold from the launch memory) and then states only that the ARGUMENTS end as
  launched.  The same run, read at the two buffers the program returns, says that they end at the last boundary's
  contents `Gen.W10` — what the value claim needs.  The segments, their proof data and the launch are the generated
  ones, cited; only the final reading differs.
-/
import proofs.«113141_j6502580486167_1_alg».proof.Proof.Gen.KernelIdeal.Frame

set_option maxRecDepth 16384

noncomputable section

namespace Cert.GCN

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the two returned buffers at
    the last boundary's contents and the arguments as launched. -/
theorem kernel_run : θ_run defs (onTc (τ := τ) (main (F := F))) ⟨m, fun _ => 0, ρ⟩ (fun r => ∀ c : Dev nD,
      r.2.mem ((c.tc : Thread nD τ).loc main_v91) = W10 m ρ c (Proc.devRef .tc main_v91)
      ∧ r.2.mem ((c.tc : Thread nD τ).loc main_v45) = W10 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v91 (by decide)),
       h c _ (mem_uc main_v45 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.GCN

end
-- ==== Proof.Walk.lean ====
/-
  Which buffers the program's segments leave alone.  The generated frame names the buffer contents at each of the
  program's ten segment boundaries (`Gen.W0 … Gen.W10`).  A host stretch changes only the buffers its operations
  write, and a kernel region only its output array; so the arguments reach every later segment as launched, and the
  first layer's result, written by region 1, is still there at the end although region 2 and the second stretch of
  host operations come after it.
-/
import proofs.«113141_j6502580486167_1_alg».proof.Proof.Gen.KernelIdeal.Frame

set_option maxRecDepth 16384

noncomputable section

namespace Cert.GCN

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- No operation of a literal stretch of host operations writes the buffer in the goal: each operation's one
    result buffer is another reference. -/
macro "host_keeps" : tactic => `(tactic| (
  refine StableHlo.after_of_forall_not_mem _ _ (List.forall_iff_forall_mem.mp ?_)
  simp only [hostOps1, hostOps1_1, hostOps1_2, hostOps3, hostOps3_1, hostOps3_2, List.flatten_cons, List.flatten_nil,
    List.append_nil, List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-! ## After region 0 -/

theorem W1_arg1 (c : Dev nD) : W1 m ρ c (Proc.devRef .tc main_arg1) = m ((c : Thread nD τ).loc main_arg1) :=
  (W1_of_ne m ρ c main_arg1 (by decide)).trans rfl
theorem W1_arg3 (c : Dev nD) : W1 m ρ c (Proc.devRef .tc main_arg3) = m ((c : Thread nD τ).loc main_arg3) :=
  (W1_of_ne m ρ c main_arg3 (by decide)).trans rfl
theorem W1_arg4 (c : Dev nD) : W1 m ρ c (Proc.devRef .tc main_arg4) = m ((c : Thread nD τ).loc main_arg4) :=
  (W1_of_ne m ρ c main_arg4 (by decide)).trans rfl
theorem W1_arg5 (c : Dev nD) : W1 m ρ c (Proc.devRef .tc main_arg5) = m ((c : Thread nD τ).loc main_arg5) :=
  (W1_of_ne m ρ c main_arg5 (by decide)).trans rfl

/-! ## Through the first stretch of host operations -/

theorem W4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := by host_keeps
    _ = W2 m ρ c (Proc.devRef .tc main_arg1) := by host_keeps
    _ = W1 m ρ c (Proc.devRef .tc main_arg1) := by host_keeps
    _ = m ((c : Thread nD τ).loc main_arg1) := W1_arg1 m ρ c
theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := by host_keeps
    _ = W2 m ρ c (Proc.devRef .tc main_arg4) := by host_keeps
    _ = W1 m ρ c (Proc.devRef .tc main_arg4) := by host_keeps
    _ = m ((c : Thread nD τ).loc main_arg4) := W1_arg4 m ρ c
theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := by host_keeps
    _ = W2 m ρ c (Proc.devRef .tc main_arg5) := by host_keeps
    _ = W1 m ρ c (Proc.devRef .tc main_arg5) := by host_keeps
    _ = m ((c : Thread nD τ).loc main_arg5) := W1_arg5 m ρ c

/-! ## After regions 1 and 2 -/

theorem W5_arg4 (c : Dev nD) : W5 m ρ c (Proc.devRef .tc main_arg4) = m ((c : Thread nD τ).loc main_arg4) :=
  (W5_of_ne m ρ c main_arg4 (by decide)).trans (W4_arg4 m ρ c)
theorem W6_arg1 (c : Dev nD) : W6 m ρ c (Proc.devRef .tc main_arg1) = m ((c : Thread nD τ).loc main_arg1) :=
  (W6_of_ne m ρ c main_arg1 (by decide)).trans ((W5_of_ne m ρ c main_arg1 (by decide)).trans (W4_arg1 m ρ c))
theorem W6_arg5 (c : Dev nD) : W6 m ρ c (Proc.devRef .tc main_arg5) = m ((c : Thread nD τ).loc main_arg5) :=
  (W6_of_ne m ρ c main_arg5 (by decide)).trans ((W5_of_ne m ρ c main_arg5 (by decide)).trans (W4_arg5 m ρ c))

/-- Region 2 only READS the first layer's result (its window 0): the array is as region 1 left it. -/
theorem W6_v45 (c : Dev nD) : W6 m ρ c (Proc.devRef .tc main_v45) = W5 m ρ c (Proc.devRef .tc main_v45) :=
  (W6_arr m ρ c 0).trans (((dat2 (V5 m ρ) c).arrAt_in 0 rfl _).trans (A_eq2 (V5 m ρ) c 0))

/-! ## Through the second stretch of host operations and region 3 -/

/-- The first layer's result at the end of the run is what region 1 wrote. -/
theorem W10_v45 (c : Dev nD) : W10 m ρ c (Proc.devRef .tc main_v45) = W5 m ρ c (Proc.devRef .tc main_v45) :=
  calc W10 m ρ c (Proc.devRef .tc main_v45)
    _ = W9 m ρ c (Proc.devRef .tc main_v45) := W10_of_ne m ρ c main_v45 (by decide)
    _ = W8 m ρ c (Proc.devRef .tc main_v45) := by host_keeps
    _ = W7 m ρ c (Proc.devRef .tc main_v45) := by host_keeps
    _ = W6 m ρ c (Proc.devRef .tc main_v45) := by host_keeps
    _ = W5 m ρ c (Proc.devRef .tc main_v45) := W6_v45 m ρ c

end Cert.GCN

end
-- ==== Proof.Host.lean ====
/-
  What the host operations between the kernel regions compute.  Between region 0 (the product `X · W₁`) and region 1
  (bias and rectifier) the program runs 57 host operations: from the edge list it builds the source and target
  columns (each followed by every node once), the in-degrees by a scatter of ones, their inverse square roots, the
  per-edge factor `dinv[src] · dinv[dst]`, gathers the product's rows at the sources, scales them and scatters them,
  summed, at the targets; and it lays the bias out as a row.  Read back, the aggregate is the ONE function `agg64` of
  the product and the edge list, the same operations the reference applies; nothing of it is opened here, the two
  chains are the same term.  Likewise between regions 2 and 3, at 32 columns (`agg32`).
-/
import proofs.«113141_j6502580486167_1_alg».proof.Proof.Gen.KernelIdeal.Frame
import proofs.«113141_j6502580486167_1_alg».proof.Proof.Spec

set_option maxRecDepth 16384

noncomputable section

namespace Cert.GCN

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 4000000 in
/-- Region 1's first operand: the aggregate of region 0's result over the edge list. -/
theorem W4_v43 (c : Dev nD) : W4 m ρ c (Proc.devRef .tc main_v43)
    = agg64 (F := F) (W1 m ρ c (Proc.devRef .tc main_v0)) (W1 m ρ c (Proc.devRef .tc main_arg1)) := by
  show StableHlo.after hostOps1_2 (StableHlo.after hostOps1_1 (StableHlo.after hostOps1 (W1 m ρ c))) (Proc.devRef .tc main_v43) = _
  generalize W1 m ρ c = V
  after_results_simp <;> rfl

/-- Region 1's second operand: the first bias laid out as a row. -/
theorem W4_v44 (c : Dev nD) : W4 m ρ c (Proc.devRef .tc main_v44)
    = shapeCast S1x64 (W1 m ρ c (Proc.devRef .tc main_arg3)) shapeCasts_S64_S1x64 := by
  show StableHlo.after hostOps1_2 (StableHlo.after hostOps1_1 (StableHlo.after hostOps1 (W1 m ρ c))) (Proc.devRef .tc main_v44) = _
  generalize W1 m ρ c = V
  after_results_simp <;> rfl

set_option maxHeartbeats 4000000 in
/-- Region 3's first operand: the aggregate of region 2's result over the edge list. -/
theorem W9_v89 (c : Dev nD) : W9 m ρ c (Proc.devRef .tc main_v89)
    = agg32 (F := F) (W6 m ρ c (Proc.devRef .tc main_v46)) (W6 m ρ c (Proc.devRef .tc main_arg1)) := by
  show StableHlo.after hostOps3_2 (StableHlo.after hostOps3_1 (StableHlo.after hostOps3 (W6 m ρ c))) (Proc.devRef .tc main_v89) = _
  generalize W6 m ρ c = V
  after_results_simp <;> rfl

/-- Region 3's second operand: the second bias laid out as a row. -/
theorem W9_v90 (c : Dev nD) : W9 m ρ c (Proc.devRef .tc main_v90)
    = shapeCast S1x32 (W6 m ρ c (Proc.devRef .tc main_arg5)) shapeCasts_S32_S1x32 := by
  show StableHlo.after hostOps3_2 (StableHlo.after hostOps3_1 (StableHlo.after hostOps3 (W6 m ρ c))) (Proc.devRef .tc main_v90) = _
  generalize W6 m ρ c = V
  after_results_simp <;> rfl

end Cert.GCN

end
-- ==== Proof.Region0.lean ====
/-
  Region 0 of the kernel program: the product `X · W₁` of the node features (100000 × 128) and the first layer's weights
  (128 × 64), computed one block of 10000 rows at a time.

  At grid point `t` the body multiplies rows `10000 t … 10000 t + 9999` of `X` by the whole of `W₁` and writes the
  result to the same rows of the output. On the extended reals the narrowing of the operands is the identity and the
  product into a zero accumulator is the plain sum over the contraction index, so entry `(p, q)` of the block's product is
  `∑ k < 128, x (p, k) · w (k, q)`; the ten row blocks tile the array (row `r` lies in block `r / 10000`), hence the array
  ends holding `mm1 X W₁`, entry by entry.
-/
import proofs.«113141_j6502580486167_1_alg».proof.Proof.Gen.KernelIdeal.Frame
import proofs.«113141_j6502580486167_1_alg».proof.Proof.Spec
import Idealize.ShloMosaic.Lib.ValueIdx
import Idealize.ShloMosaic.Lib.Pipeline.Value
import Idealize.ShloMosaic.PureOps.Ideal.Laws

noncomputable section

namespace Cert.GCN

open Cert.KernelIdeal Cert.KernelIdeal.Gen Idealize.ShloMosaic Idealize.ShloMosaic.TcCoe Idealize.SL.Sem
open Idealize.ShloMosaic.ValueIdx

/-! ## The matrix product of one row block, entry by entry -/

theorem lhs_blk0_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_blk0_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_blk0_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_blk0_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The body's product of a row block `x` (10000 × 128) and the weights `w` (128 × 64), at entry `(p, q)`:
    the sum over `k < 128` of `x (p, k) · w (k, q)` (on the extended reals the narrowing of the operands is the
    identity and the accumulator is zero). -/
theorem blockProduct0_apply (x : Vec Ideal S10000x128 .f32) (w : Vec Ideal S128x64 .f32) (p : Fin 10000) (q : Fin 64) :
    k0_pay1 (F := Ideal) x w (ix2 p q) = ∑ k : Fin 128, x (ix2 p k) * w (ix2 k q) := by
  unfold k0_pay1
  refine (Ideal.matmul_constant_zero_apply dot_S10000x128_S128x64_S10000x64_1_0_0_1_n_n none _ _ (ix2 p q)).trans ?_
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 p q) ((ValueIdx.contrEquiv1 dot_S10000x128_S128x64_S10000x64_1_0_0_1_n_n 128 rfl rfl).symm k) = ix2 p k := funext fun a => Fin.ext (by
    match a with
    | ⟨0, _⟩ => exact lhs_blk0_0 _ _
    | ⟨1, _⟩ => exact (lhs_blk0_1 _ _).trans hk)
  have er : dot_S10000x128_S128x64_S10000x64_1_0_0_1_n_n.rhsIdx (ix2 p q) ((ValueIdx.contrEquiv1 dot_S10000x128_S128x64_S10000x64_1_0_0_1_n_n 128 rfl rfl).symm k) = ix2 k q := funext fun a => Fin.ext (by
    match a with
    | ⟨0, _⟩ => exact (rhs_blk0_0 _ _).trans hk
    | ⟨1, _⟩ => exact rhs_blk0_1 _ _)
  rw [truncf_apply, truncf_apply, el, er]

/-! ## From the row blocks to the array -/

theorem zeroOffsets : (![0, 0] : Fin 2 → Nat) = fun _ => 0 := funext fun a => by fin_cases a <;> rfl

/-- The printed index maps over the grid: at point `t` the left operand's block and the result's block are the
    `t`-th row block (block column 0), and the weights' block is the whole matrix. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A row block's product is the rows `10000 r … 10000 r + 9999` of `X · W`, when the block `x` is those rows of `X`
    and `w` is `W`. -/
theorem blockProduct0_eq (X : (⟨S100000x128, .f32⟩ : BufTy).Contents (Elt Ideal)) (W : (⟨S128x64, .f32⟩ : BufTy).Contents (Elt Ideal))
    (x : Vec Ideal S10000x128 .f32) (w : Vec Ideal S128x64 .f32) (r : Nat)
    (hx : ∀ (p : Fin 10000) (k : Fin 128) (i : S100000x128.Idx), (i 0).val = r * 10000 + p.val → (i 1).val = k.val → x (ix2 p k) = X i)
    (hw : ∀ (k : Fin 128) (q : Fin 64) (i : S128x64.Idx), (i 0).val = k.val → (i 1).val = q.val → w (ix2 k q) = W i)
    (j : S10000x64.Idx) (i : S100000x64.Idx) (hi0 : (i 0).val = r * 10000 + (j 0).val) (hi1 : (i 1).val = (j 1).val) :
    k0_pay1 (F := Ideal) x w j = mm1 X W i := by
  obtain ⟨p, q, rfl⟩ : ∃ (p : Fin 10000) (q : Fin 64), j = ix2 p q := ⟨j 0, j 1, eq_ix2 j⟩
  rw [blockProduct0_apply]
  unfold mm1
  refine Finset.sum_congr rfl fun k _ => ?_
  rw [hx p k (Cert.ReferenceIdeal.ReadP.lidx_main_v0 i k) hi0 rfl, hw k q (Cert.ReferenceIdeal.ReadP.ridx_main_v0 i k) rfl hi1]

/-- What point `t` writes back is block `t` of `X · W`. -/
theorem flushed0 (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal) (mm1 (V c main_arg0) (V c main_arg2)) := by
  show (cfg0.win 2).cut (grid0.coords t) ((dat0 V c).after 2 t) = _
  rw [after0_2]
  unfold out0_2
  rw [View.canon_unit_zero zeroOffsets]
  simp only [View.ld_unit_zero (S := S10000x128) zeroOffsets, View.ld_unit_zero (S := S128x64) zeroOffsets]
  obtain ⟨e00, e01, e10, e11, e20, e21⟩ := blockIndex0 t
  funext j
  show k0_pay1 (F := Ideal) (iblk0 V c 0 t) (iblk0 V c 1 t) j = mm1 (V c main_arg0) (V c main_arg2) (((cfg0.win 2).blk t).view.emb j)
  refine blockProduct0_eq (V c main_arg0) (V c main_arg2) _ _ t.val ?_ ?_ j _ ?_ ?_
  · intro p k i h0 h1
    show V c main_arg0 (((cfg0.win 0).blk t).view.emb (ix2 p k)) = V c main_arg0 i
    congr 1
    funext a; apply Fin.ext
    match a with
    | ⟨0, _⟩ => show win0_0.index t (0 : Fin 2) * 10000 + 1 * p.val = (i 0).val; omega
    | ⟨1, _⟩ => show win0_0.index t (1 : Fin 2) * 128 + 1 * k.val = (i 1).val; omega
  · intro k q i h0 h1
    show V c main_arg2 (((cfg0.win 1).blk t).view.emb (ix2 k q)) = V c main_arg2 i
    congr 1
    funext a; apply Fin.ext
    match a with
    | ⟨0, _⟩ => show win0_1.index t (0 : Fin 2) * 128 + 1 * k.val = (i 0).val; omega
    | ⟨1, _⟩ => show win0_1.index t (1 : Fin 2) * 64 + 1 * q.val = (i 1).val; omega
  · show win0_2.index t (0 : Fin 2) * 10000 + 1 * (j 0).val = t.val * 10000 + (j 0).val; omega
  · show win0_2.index t (1 : Fin 2) * 64 + 1 * (j 1).val = (j 1).val; omega

/-- An index of the array is in point `t`'s block iff each coordinate is in the block's range on its axis. -/
theorem mem_block0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v0).slice (win0_2.rect t)).set ↔ _
  rw [View.set_slice_whole, Rect.mem_set_unit]
  exact Iff.rfl

/-- Every entry of the array is in some point's block: row `r` is in the block of the point `r / 10000`. -/
theorem covered0 (i : S100000x64.Idx) :
    ∃ t : Fin cfg0.N, (cfg0.win 2).flush t = true ∧ i ∈ ((cfg0.win 2).blk t).view.set := by
  have hN : cfg0.N = 10 := N_0
  have hi0 : (i 0).val < 100000 := (i 0).isLt
  have hi1 : (i 1).val < 64 := (i 1).isLt
  have ht : (i 0).val / 10000 < cfg0.N := by rw [hN]; omega
  refine ⟨⟨(i 0).val / 10000, ht⟩, flush0_2 _, ?_⟩
  rw [mem_block0]
  obtain ⟨-, -, -, -, e20, e21⟩ := blockIndex0 ⟨(i 0).val / 10000, ht⟩
  have e20' : win0_2.index ⟨(i 0).val / 10000, ht⟩ (0 : Fin 2) = (i 0).val / 10000 := e20
  intro a
  match a with
  | ⟨0, _⟩ => show win0_2.index ⟨(i 0).val / 10000, ht⟩ (0 : Fin 2) * 10000 ≤ (i 0).val ∧ (i 0).val < win0_2.index ⟨(i 0).val / 10000, ht⟩ (0 : Fin 2) * 10000 + 10000; omega
  | ⟨1, _⟩ => show win0_2.index ⟨(i 0).val / 10000, ht⟩ (1 : Fin 2) * 64 ≤ (i 1).val ∧ (i 1).val < win0_2.index ⟨(i 0).val / 10000, ht⟩ (1 : Fin 2) * 64 + 64; omega

/-- After region 0 the result array holds `X · W₁` of the arrays the region finds. -/
theorem region0_value (V : (c : Dev nD) → (b : Ref sig .tc) → Buf (Elt Ideal) ((c : Thread nD τ).loc b)) (c : Dev nD) :
    (dat0 (F := Ideal) V c).arrAt 2 cfg0.N = mm1 (V c main_arg0) (V c main_arg2) :=
  (dat0 (F := Ideal) V c).arrAt_eq_of_cover 2 (mm1 (V c main_arg0) (V c main_arg2)) (fun t _ => flushed0 V c t) covered0

end Cert.GCN

end
-- ==== Proof.Region1.lean ====
/-
  The first layer's bias and rectifier step, read off the kernel program's second region.

  The region runs over ten row blocks of 10000 rows.  At point t it holds rows 10000·t … 10000·t + 9999 of the
  aggregate (64 columns) and the whole bias row [1, 64], and writes back, for row p and column q of the block,

      max (block (p, q) + bias (0, q)) 0.

  Row r of the array lies in the block of the point r / 10000, so the ten blocks fill the array, and the array the
  region leaves is, index by index, `biasRelu64` of the aggregate and the bias row as the region finds them.
-/
import proofs.«113141_j6502580486167_1_alg».proof.Proof.Gen.KernelIdeal.Frame
import proofs.«113141_j6502580486167_1_alg».proof.Proof.Gen.KernelIdeal.Points
import proofs.«113141_j6502580486167_1_alg».proof.Proof.Gen.KernelIdeal.Launch
import proofs.«113141_j6502580486167_1_alg».proof.Proof.Spec
import Idealize.ShloMosaic.Lib.ValueIdx
import Idealize.ShloMosaic.Lib.ValueLayout
import Idealize.ShloMosaic.Lib.Pipeline.Value

noncomputable section

namespace Cert.GCN

open Cert.KernelIdeal Cert.KernelIdeal.Gen Idealize.ShloMosaic Idealize.ShloMosaic.TcCoe Idealize.SL.Sem
open Idealize.ShloMosaic.ValueIdx

/-- The two zero offsets, as the constant function. -/
theorem offsets_zero1 : (![0, 0] : Fin 2 → Nat) = fun _ => 0 := funext fun a => by fin_cases a <;> rfl

/-- What a point stores at row `p`, column `q` of its block: the larger of zero and the block's entry plus the bias
    row's entry in column `q` (the casts to the same shape are the identity; the row `[1, 64]` spread over 10000 rows
    reads its one row; the spread constant reads its value). -/
theorem addRowRelu64_at (x0 : Vec Ideal S10000x64 .f32) (x1 : Vec Ideal S1x64 .f32) (p : Fin 10000) (q : Fin 64) :
    k1_pay1 (F := Ideal) x0 x1 (ix2 p q)
      = max (x0 (ix2 p q) + x1 (ix2 (0 : Fin 1) q)) (FloatOps.ofBits (F := Ideal) .f32 0x00000000#32) := by
  unfold k1_pay1
  simp only [shapeCast_self]
  rw [maximumf_apply, addf_apply, broadcastTo_1b_ab_apply, broadcast_apply]

/-- The block indices at point `t`: the aggregate's and the result's blocks are block `t` along the rows and block 0
    along the columns; the bias row's block is block 0 on both axes. -/
theorem block_index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `biasRelu64` of the aggregate and the bias row: entry `(p, q)` of
    the block sits at row `10000·t + p`, column `q` of the array, in the aggregate's block and in the result's alike,
    and the bias row's block is the whole row. -/
theorem flushed1 (V : (c : Dev nD) → (b : Ref sig .tc) → Buf (Elt Ideal) ((c : Thread nD τ).loc b)) (c : Dev nD)
    (t : Fin cfg1.N) :
    (dat1 (F := Ideal) V c).flushed 2 t
      = ((cfg1.win 2).blk t).view.read (Elt Ideal) (biasRelu64 (F := Ideal) (V c main_v43) (V c main_v44)) := by
  show (cfg1.win 2).cut (grid1.coords t) ((dat1 V c).after 2 t) = _
  rw [after1_2]
  unfold out1_2
  rw [View.canon_unit_zero offsets_zero1]
  simp only [View.ld_unit_zero (S := S10000x64) offsets_zero1, View.ld_unit_zero (S := S1x64) offsets_zero1]
  funext j
  obtain ⟨p, q, rfl⟩ : ∃ (p : Fin 10000) (q : Fin 64), j = ix2 p q := ⟨j 0, j 1, eq_ix2 j⟩
  refine (addRowRelu64_at (iblk1 V c 0 t) (iblk1 V c 1 t) p q).trans ?_
  show FloatOps.maximumf (F := Ideal) (φ := .f32)
        (FloatOps.addf (F := Ideal) (φ := .f32) (V c main_v43 (((cfg1.win 0).blk t).view.emb (ix2 p q)))
          (V c main_v44 (((cfg1.win 1).blk t).view.emb (ix2 (0 : Fin 1) q))))
        (FloatOps.ofBits (F := Ideal) .f32 0x00000000#32)
     = FloatOps.maximumf (F := Ideal) (φ := .f32)
        (FloatOps.addf (F := Ideal) (φ := .f32) (V c main_v43 (((cfg1.win 2).blk t).view.emb (ix2 p q)))
          (V c main_v44 (Cert.ReferenceIdeal.ReadP.idx_main_v45 (((cfg1.win 2).blk t).view.emb (ix2 p q)))))
        (FloatOps.ofBits (F := Ideal) .f32 0x00000000#32)
  obtain ⟨e00, e01, e10, e11, e20, e21⟩ := block_index1 t
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * q.val = win1_2.index t (1 : Fin 2) * 64 + 1 * q.val; omega
  have h1 : ((cfg1.win 1).blk t).view.emb (ix2 (0 : Fin 1) q)
      = Cert.ReferenceIdeal.ReadP.idx_main_v45 (((cfg1.win 2).blk t).view.emb (ix2 p q)) := by
    funext a; apply Fin.ext
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  rw [h0, h1]

/-- An index of the array is in the block of point `t` iff each coordinate is in the block's range on its axis. -/
theorem mem_block1 (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v45).slice (win1_2.rect t)).set ↔ _
  rw [View.set_slice_whole, Rect.mem_set_unit]
  exact Iff.rfl

/-- Row `r` lies in the block of the point `r / 10000` (there is such a point: `r < 100000` and there are ten). -/
theorem rows_covered1 (i : S100000x64.Idx) :
    ∃ t : Fin cfg1.N, (cfg1.win 2).flush t = true ∧ i ∈ ((cfg1.win 2).blk t).view.set := by
  have hN : grid1.N = 10 := N_1
  have hi0 : (i 0).val < 100000 := (i 0).isLt
  have hi1 : (i 1).val < 64 := (i 1).isLt
  obtain ⟨t, ht⟩ : ∃ t : Fin cfg1.N, t.val = (i 0).val / 10000 :=
    ⟨⟨(i 0).val / 10000, by show (i 0).val / 10000 < grid1.N; rw [hN]; omega⟩, rfl⟩
  obtain ⟨-, -, -, -, e20, e21⟩ := block_index1 t
  refine ⟨t, flush1_2 t, ?_⟩
  rw [mem_block1]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 64 ≤ (i 1).val ∧ (i 1).val < win1_2.index t (1 : Fin 2) * 64 + 64
    omega

/-- The array the region leaves is `biasRelu64` of the aggregate and the bias row as the region finds them. -/
theorem region1_value (V : (c : Dev nD) → (b : Ref sig .tc) → Buf (Elt Ideal) ((c : Thread nD τ).loc b)) (c : Dev nD) :
    (dat1 (F := Ideal) V c).arrAt 2 cfg1.N = biasRelu64 (F := Ideal) (V c main_v43) (V c main_v44) :=
  (dat1 (F := Ideal) V c).arrAt_eq_of_cover 2 (biasRelu64 (F := Ideal) (V c main_v43) (V c main_v44))
    (fun t _ => flushed1 V c t) rows_covered1

end Cert.GCN

end
-- ==== Proof.Region2.lean ====
/-
  Region 2 of the kernel program: the product `H · W₂` of the first layer's output (100000 × 64) and the second layer's
  weights (64 × 32), computed one block of 10000 rows at a time.

  At grid point `t` the body multiplies rows `10000 t … 10000 t + 9999` of `H` by the whole of `W₂` and writes the
  result to the same rows of the output. On the extended reals the narrowing of the operands is the identity and the
  product into a zero accumulator is the plain sum over the contraction index, so entry `(p, q)` of the block's product is
  `∑ k < 64, x (p, k) · w (k, q)`; the ten row blocks tile the array (row `r` lies in block `r / 10000`), hence the array
  ends holding `mm2 H W₂`, entry by entry.
-/
import proofs.«113141_j6502580486167_1_alg».proof.Proof.Gen.KernelIdeal.Frame
import proofs.«113141_j6502580486167_1_alg».proof.Proof.Spec
import Idealize.ShloMosaic.Lib.ValueIdx
import Idealize.ShloMosaic.Lib.Pipeline.Value
import Idealize.ShloMosaic.PureOps.Ideal.Laws

noncomputable section

namespace Cert.GCN

open Cert.KernelIdeal Cert.KernelIdeal.Gen Idealize.ShloMosaic Idealize.ShloMosaic.TcCoe Idealize.SL.Sem
open Idealize.ShloMosaic.ValueIdx

/-! ## The matrix product of one row block, entry by entry -/

theorem lhs_blk2_0 (i : S10000x32.Idx) (q : dot_S10000x64_S64x32_S10000x32_1_0_0_1_n_n.contr.Idx) :
    (dot_S10000x64_S64x32_S10000x32_1_0_0_1_n_n.lhsIdx i q 0).val = (i 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
theorem lhs_blk2_1 (i : S10000x32.Idx) (q : dot_S10000x64_S64x32_S10000x32_1_0_0_1_n_n.contr.Idx) :
    (dot_S10000x64_S64x32_S10000x32_1_0_0_1_n_n.lhsIdx i q 1).val = (q ⟨0, by decide⟩).val :=
  dot_S10000x64_S64x32_S10000x32_1_0_0_1_n_n.lhsIdx_val_of_single rfl i q
theorem rhs_blk2_0 (i : S10000x32.Idx) (q : dot_S10000x64_S64x32_S10000x32_1_0_0_1_n_n.contr.Idx) :
    (dot_S10000x64_S64x32_S10000x32_1_0_0_1_n_n.rhsIdx i q 0).val = (q ⟨0, by decide⟩).val :=
  dot_S10000x64_S64x32_S10000x32_1_0_0_1_n_n.rhsIdx_val_of_single rfl i q
theorem rhs_blk2_1 (i : S10000x32.Idx) (q : dot_S10000x64_S64x32_S10000x32_1_0_0_1_n_n.contr.Idx) :
    (dot_S10000x64_S64x32_S10000x32_1_0_0_1_n_n.rhsIdx i q 1).val = (i 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- The body's product of a row block `x` (10000 × 64) and the weights `w` (64 × 32), at entry `(p, q)`:
    the sum over `k < 64` of `x (p, k) · w (k, q)` (on the extended reals the narrowing of the operands is the
    identity, the cast of the block to its own shape changes nothing, and the accumulator is zero). -/
theorem blockProduct2_apply (x : Vec Ideal S10000x64 .f32) (w : Vec Ideal S64x32 .f32) (p : Fin 10000) (q : Fin 32) :
    k2_pay1 (F := Ideal) x w (ix2 p q) = ∑ k : Fin 64, x (ix2 p k) * w (ix2 k q) := by
  unfold k2_pay1
  refine (Ideal.matmul_constant_zero_apply dot_S10000x64_S64x32_S10000x32_1_0_0_1_n_n none _ _ (ix2 p q)).trans ?_
  rw [← Equiv.sum_comp (ValueIdx.contrEquiv1 dot_S10000x64_S64x32_S10000x32_1_0_0_1_n_n 64 rfl rfl).symm]
  refine Finset.sum_congr rfl fun k _ => ?_
  have hk := ValueIdx.contrEquiv1_symm_val dot_S10000x64_S64x32_S10000x32_1_0_0_1_n_n 64 rfl rfl k
  have el : dot_S10000x64_S64x32_S10000x32_1_0_0_1_n_n.lhsIdx (ix2 p q) ((ValueIdx.contrEquiv1 dot_S10000x64_S64x32_S10000x32_1_0_0_1_n_n 64 rfl rfl).symm k) = ix2 p k := funext fun a => Fin.ext (by
    match a with
    | ⟨0, _⟩ => exact lhs_blk2_0 _ _
    | ⟨1, _⟩ => exact (lhs_blk2_1 _ _).trans hk)
  have er : dot_S10000x64_S64x32_S10000x32_1_0_0_1_n_n.rhsIdx (ix2 p q) ((ValueIdx.contrEquiv1 dot_S10000x64_S64x32_S10000x32_1_0_0_1_n_n 64 rfl rfl).symm k) = ix2 k q := funext fun a => Fin.ext (by
    match a with
    | ⟨0, _⟩ => exact (rhs_blk2_0 _ _).trans hk
    | ⟨1, _⟩ => exact rhs_blk2_1 _ _)
  rw [truncf_apply, truncf_apply, shapeCast_self, el, er]

/-! ## From the row blocks to the array -/

theorem zeroOffsets2 : (![0, 0] : Fin 2 → Nat) = fun _ => 0 := funext fun a => by fin_cases a <;> rfl

/-- The printed index maps over the grid: at point `t` the left operand's block and the result's block are the
    `t`-th row block (block column 0), and the weights' block is the whole matrix. -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- A row block's product is the rows `10000 r … 10000 r + 9999` of `H · W`, when the block `x` is those rows of `H`
    and `w` is `W`. -/
theorem blockProduct2_eq (X : (⟨S100000x64, .f32⟩ : BufTy).Contents (Elt Ideal)) (W : (⟨S64x32, .f32⟩ : BufTy).Contents (Elt Ideal))
    (x : Vec Ideal S10000x64 .f32) (w : Vec Ideal S64x32 .f32) (r : Nat)
    (hx : ∀ (p : Fin 10000) (k : Fin 64) (i : S100000x64.Idx), (i 0).val = r * 10000 + p.val → (i 1).val = k.val → x (ix2 p k) = X i)
    (hw : ∀ (k : Fin 64) (q : Fin 32) (i : S64x32.Idx), (i 0).val = k.val → (i 1).val = q.val → w (ix2 k q) = W i)
    (j : S10000x32.Idx) (i : S100000x32.Idx) (hi0 : (i 0).val = r * 10000 + (j 0).val) (hi1 : (i 1).val = (j 1).val) :
    k2_pay1 (F := Ideal) x w j = mm2 X W i := by
  obtain ⟨p, q, rfl⟩ : ∃ (p : Fin 10000) (q : Fin 32), j = ix2 p q := ⟨j 0, j 1, eq_ix2 j⟩
  rw [blockProduct2_apply]
  unfold mm2
  refine Finset.sum_congr rfl fun k _ => ?_
  rw [hx p k (Cert.ReferenceIdeal.ReadP.lidx_main_v48 i k) hi0 rfl, hw k q (Cert.ReferenceIdeal.ReadP.ridx_main_v48 i k) rfl hi1]

/-- What point `t` writes back is block `t` of `H · W`. -/
theorem flushed2 (V : (c : Dev nD) → (b : Ref sig .tc) → Buf (Elt Ideal) ((c : Thread nD τ).loc b)) (c : Dev nD) (t : Fin cfg2.N) :
    (dat2 (F := Ideal) V c).flushed 2 t = ((cfg2.win 2).blk t).view.read (Elt Ideal) (mm2 (V c main_v45) (V c main_arg4)) := by
  show (cfg2.win 2).cut (grid2.coords t) ((dat2 V c).after 2 t) = _
  rw [after2_2]
  unfold out2_2
  rw [View.canon_unit_zero zeroOffsets2]
  simp only [View.ld_unit_zero (S := S10000x64) zeroOffsets2, View.ld_unit_zero (S := S64x32) zeroOffsets2]
  obtain ⟨e00, e01, e10, e11, e20, e21⟩ := blockIndex2 t
  funext j
  show k2_pay1 (F := Ideal) (iblk2 V c 0 t) (iblk2 V c 1 t) j = mm2 (V c main_v45) (V c main_arg4) (((cfg2.win 2).blk t).view.emb j)
  refine blockProduct2_eq (V c main_v45) (V c main_arg4) _ _ t.val ?_ ?_ j _ ?_ ?_
  · intro p k i h0 h1
    show V c main_v45 (((cfg2.win 0).blk t).view.emb (ix2 p k)) = V c main_v45 i
    congr 1
    funext a; apply Fin.ext
    match a with
    | ⟨0, _⟩ => show win2_0.index t (0 : Fin 2) * 10000 + 1 * p.val = (i 0).val; omega
    | ⟨1, _⟩ => show win2_0.index t (1 : Fin 2) * 64 + 1 * k.val = (i 1).val; omega
  · intro k q i h0 h1
    show V c main_arg4 (((cfg2.win 1).blk t).view.emb (ix2 k q)) = V c main_arg4 i
    congr 1
    funext a; apply Fin.ext
    match a with
    | ⟨0, _⟩ => show win2_1.index t (0 : Fin 2) * 64 + 1 * k.val = (i 0).val; omega
    | ⟨1, _⟩ => show win2_1.index t (1 : Fin 2) * 32 + 1 * q.val = (i 1).val; omega
  · show win2_2.index t (0 : Fin 2) * 10000 + 1 * (j 0).val = t.val * 10000 + (j 0).val; omega
  · show win2_2.index t (1 : Fin 2) * 32 + 1 * (j 1).val = (j 1).val; omega

/-- An index of the array is in point `t`'s block iff each coordinate is in the block's range on its axis. -/
theorem mem_block2 (t : Fin cfg2.N) (i : S100000x32.Idx) :
    i ∈ ((cfg2.win 2).blk t).view.set ↔ ∀ a : Fin 2, win2_2.index t a * S10000x32.size a ≤ (i a).val ∧ (i a).val < win2_2.index t a * S10000x32.size a + S10000x32.size a := by
  show i ∈ ((View.whole main_v46).slice (win2_2.rect t)).set ↔ _
  rw [View.set_slice_whole, Rect.mem_set_unit]
  exact Iff.rfl

/-- Every entry of the array is in some point's block: row `r` is in the block of the point `r / 10000`. -/
theorem covered2 (i : S100000x32.Idx) :
    ∃ t : Fin cfg2.N, (cfg2.win 2).flush t = true ∧ i ∈ ((cfg2.win 2).blk t).view.set := by
  have hN : cfg2.N = 10 := N_2
  have hi0 : (i 0).val < 100000 := (i 0).isLt
  have hi1 : (i 1).val < 32 := (i 1).isLt
  have ht : (i 0).val / 10000 < cfg2.N := by rw [hN]; omega
  refine ⟨⟨(i 0).val / 10000, ht⟩, flush2_2 _, ?_⟩
  rw [mem_block2]
  obtain ⟨-, -, -, -, e20, e21⟩ := blockIndex2 ⟨(i 0).val / 10000, ht⟩
  have e20' : win2_2.index ⟨(i 0).val / 10000, ht⟩ (0 : Fin 2) = (i 0).val / 10000 := e20
  intro a
  match a with
  | ⟨0, _⟩ => show win2_2.index ⟨(i 0).val / 10000, ht⟩ (0 : Fin 2) * 10000 ≤ (i 0).val ∧ (i 0).val < win2_2.index ⟨(i 0).val / 10000, ht⟩ (0 : Fin 2) * 10000 + 10000; omega
  | ⟨1, _⟩ => show win2_2.index ⟨(i 0).val / 10000, ht⟩ (1 : Fin 2) * 32 ≤ (i 1).val ∧ (i 1).val < win2_2.index ⟨(i 0).val / 10000, ht⟩ (1 : Fin 2) * 32 + 32; omega

/-- After region 2 the result array holds `H · W₂` of the arrays the region finds. -/
theorem region2_value (V : (c : Dev nD) → (b : Ref sig .tc) → Buf (Elt Ideal) ((c : Thread nD τ).loc b)) (c : Dev nD) :
    (dat2 (F := Ideal) V c).arrAt 2 cfg2.N = mm2 (V c main_v45) (V c main_arg4) :=
  (dat2 (F := Ideal) V c).arrAt_eq_of_cover 2 (mm2 (V c main_v45) (V c main_arg4)) (fun t _ => flushed2 V c t) covered2

end Cert.GCN

end
-- ==== Proof.Region3.lean ====
/-
  The second layer's bias step, read off the kernel program's fourth region.

  The region runs over ten row blocks of 10000 rows.  At point t it holds rows 10000·t … 10000·t + 9999 of the
  aggregate (32 columns) and the whole bias row [1, 32], and writes back, for row p and column q of the block,

      block (p, q) + bias (0, q).

  Row r of the array lies in the block of the point r / 10000, so the ten blocks fill the array, and the array the
  region leaves is, index by index, `bias32` of the aggregate and the bias row as the region finds them.
-/
import proofs.«113141_j6502580486167_1_alg».proof.Proof.Gen.KernelIdeal.Frame
import proofs.«113141_j6502580486167_1_alg».proof.Proof.Gen.KernelIdeal.Points
import proofs.«113141_j6502580486167_1_alg».proof.Proof.Gen.KernelIdeal.Launch
import proofs.«113141_j6502580486167_1_alg».proof.Proof.Spec
import Idealize.ShloMosaic.Lib.ValueIdx
import Idealize.ShloMosaic.Lib.ValueLayout
import Idealize.ShloMosaic.Lib.Pipeline.Value

noncomputable section

namespace Cert.GCN

open Cert.KernelIdeal Cert.KernelIdeal.Gen Idealize.ShloMosaic Idealize.ShloMosaic.TcCoe Idealize.SL.Sem
open Idealize.ShloMosaic.ValueIdx

/-- The two zero offsets, as the constant function. -/
theorem offsets_zero3 : (![0, 0] : Fin 2 → Nat) = fun _ => 0 := funext fun a => by fin_cases a <;> rfl

/-- What a point stores at row `p`, column `q` of its block: the block's entry plus the bias row's entry in column `q`
    (the casts to the same shape are the identity; the row `[1, 32]` spread over 10000 rows reads its one row). -/
theorem addRow32_at (x0 : Vec Ideal S10000x32 .f32) (x1 : Vec Ideal S1x32 .f32) (p : Fin 10000) (q : Fin 32) :
    k3_pay1 (F := Ideal) x0 x1 (ix2 p q) = x0 (ix2 p q) + x1 (ix2 (0 : Fin 1) q) := by
  unfold k3_pay1
  simp only [shapeCast_self]
  rw [addf_apply, broadcastTo_1b_ab_apply]

/-- The block indices at point `t`: the aggregate's and the result's blocks are block `t` along the rows and block 0
    along the columns; the bias row's block is block 0 on both axes. -/
theorem block_index3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of `bias32` of the aggregate and the bias row: entry `(p, q)` of the
    block sits at row `10000·t + p`, column `q` of the array, in the aggregate's block and in the result's alike, and
    the bias row's block is the whole row. -/
theorem flushed3 (V : (c : Dev nD) → (b : Ref sig .tc) → Buf (Elt Ideal) ((c : Thread nD τ).loc b)) (c : Dev nD)
    (t : Fin cfg3.N) :
    (dat3 (F := Ideal) V c).flushed 2 t
      = ((cfg3.win 2).blk t).view.read (Elt Ideal) (bias32 (F := Ideal) (V c main_v89) (V c main_v90)) := by
  show (cfg3.win 2).cut (grid3.coords t) ((dat3 V c).after 2 t) = _
  rw [after3_2]
  unfold out3_2
  rw [View.canon_unit_zero offsets_zero3]
  simp only [View.ld_unit_zero (S := S10000x32) offsets_zero3, View.ld_unit_zero (S := S1x32) offsets_zero3]
  funext j
  obtain ⟨p, q, rfl⟩ : ∃ (p : Fin 10000) (q : Fin 32), j = ix2 p q := ⟨j 0, j 1, eq_ix2 j⟩
  refine (addRow32_at (iblk3 V c 0 t) (iblk3 V c 1 t) p q).trans ?_
  show FloatOps.addf (F := Ideal) (φ := .f32) (V c main_v89 (((cfg3.win 0).blk t).view.emb (ix2 p q)))
        (V c main_v90 (((cfg3.win 1).blk t).view.emb (ix2 (0 : Fin 1) q)))
     = FloatOps.addf (F := Ideal) (φ := .f32) (V c main_v89 (((cfg3.win 2).blk t).view.emb (ix2 p q)))
        (V c main_v90 (Cert.ReferenceIdeal.ReadP.idx_main_v93 (((cfg3.win 2).blk t).view.emb (ix2 p q))))
  obtain ⟨e00, e01, e10, e11, e20, e21⟩ := block_index3 t
  have h0 : ((cfg3.win 0).blk t).view.emb (ix2 p q) = ((cfg3.win 2).blk t).view.emb (ix2 p q) := by
    funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 32 + 1 * q.val = win3_2.index t (1 : Fin 2) * 32 + 1 * q.val; omega
  have h1 : ((cfg3.win 1).blk t).view.emb (ix2 (0 : Fin 1) q)
      = Cert.ReferenceIdeal.ReadP.idx_main_v93 (((cfg3.win 2).blk t).view.emb (ix2 p q)) := by
    funext a; apply Fin.ext
    match a with
    | ⟨0, _⟩ => show win3_1.index t (0 : Fin 2) * 1 + 1 * 0 = 0; omega
    | ⟨1, _⟩ => show win3_1.index t (1 : Fin 2) * 32 + 1 * q.val = win3_2.index t (1 : Fin 2) * 32 + 1 * q.val; omega
  rw [h0, h1]

/-- An index of the array is in the block of point `t` iff each coordinate is in the block's range on its axis. -/
theorem mem_block3 (t : Fin cfg3.N) (i : S100000x32.Idx) :
    i ∈ ((cfg3.win 2).blk t).view.set ↔ ∀ a : Fin 2, win3_2.index t a * S10000x32.size a ≤ (i a).val
      ∧ (i a).val < win3_2.index t a * S10000x32.size a + S10000x32.size a := by
  show i ∈ ((View.whole main_v91).slice (win3_2.rect t)).set ↔ _
  rw [View.set_slice_whole, Rect.mem_set_unit]
  exact Iff.rfl

/-- Row `r` lies in the block of the point `r / 10000` (there is such a point: `r < 100000` and there are ten). -/
theorem rows_covered3 (i : S100000x32.Idx) :
    ∃ t : Fin cfg3.N, (cfg3.win 2).flush t = true ∧ i ∈ ((cfg3.win 2).blk t).view.set := by
  have hN : grid3.N = 10 := N_3
  have hi0 : (i 0).val < 100000 := (i 0).isLt
  have hi1 : (i 1).val < 32 := (i 1).isLt
  obtain ⟨t, ht⟩ : ∃ t : Fin cfg3.N, t.val = (i 0).val / 10000 :=
    ⟨⟨(i 0).val / 10000, by show (i 0).val / 10000 < grid3.N; rw [hN]; omega⟩, rfl⟩
  obtain ⟨-, -, -, -, e20, e21⟩ := block_index3 t
  refine ⟨t, flush3_2 t, ?_⟩
  rw [mem_block3]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 32 ≤ (i 1).val ∧ (i 1).val < win3_2.index t (1 : Fin 2) * 32 + 32
    omega

/-- The array the region leaves is `bias32` of the aggregate and the bias row as the region finds them. -/
theorem region3_value (V : (c : Dev nD) → (b : Ref sig .tc) → Buf (Elt Ideal) ((c : Thread nD τ).loc b)) (c : Dev nD) :
    (dat3 (F := Ideal) V c).arrAt 2 cfg3.N = bias32 (F := Ideal) (V c main_v89) (V c main_v90) :=
  (dat3 (F := Ideal) V c).arrAt_eq_of_cover 2 (bias32 (F := Ideal) (V c main_v89) (V c main_v90))
    (fun t _ => flushed3 V c t) rows_covered3

end Cert.GCN

end
-- ==== Proof.Assemble.lean ====
/-
  The two programs compute one function.  With `X, E, W₁, b₁, W₂, b₂` the six arguments,

      out₁ = max (A₆₄ (X · W₁, E) + b₁) 0          out₀ = A₃₂ (out₁ · W₂, E) + b₂ ,

  `A` the aggregation over the edges.  On the kernel's side each piece is read off the run: a region's output array
  is its whole-array function of the region's input arrays, a stretch of host operations is the aggregation of what
  the region before it wrote, and the buffers nothing writes in between are still what they were.  On the
  reference's side the same pieces are its operations, read one at a time.  The only arithmetic is that a matrix
  product into a zero accumulator is the plain sum of products, on both sides over the same `k` in the same order; no
  law of the extended reals that could fail at an infinity is used, so the precondition is never opened.
-/
import proofs.«113141_j6502580486167_1_alg».proof.Proof.Spec
import proofs.«113141_j6502580486167_1_alg».proof.Proof.KernelRun
import proofs.«113141_j6502580486167_1_alg».proof.Proof.Walk
import proofs.«113141_j6502580486167_1_alg».proof.Proof.Host
import proofs.«113141_j6502580486167_1_alg».proof.Proof.Region0
import proofs.«113141_j6502580486167_1_alg».proof.Proof.Region1
import proofs.«113141_j6502580486167_1_alg».proof.Proof.Region2
import proofs.«113141_j6502580486167_1_alg».proof.Proof.Region3
import Idealize.ShloMosaic.Lib.Pipeline.Value

set_option maxRecDepth 16384

noncomputable section

namespace Cert.GCN

open Idealize.ShloMosaic Idealize.ShloMosaic.TcCoe Idealize.SL.Sem

/-! ## The two results as functions of the six arguments -/

section Spec
open Cert.ReferenceIdeal Cert.ReferenceIdeal.ReadP

/-- The first layer's result. -/
def out1 (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal)) :
    (⟨S100000x64, .f32⟩ : BufTy).Contents (Elt Ideal) :=
  biasRelu64 (F := Ideal) (agg64 (F := Ideal) (mm1 x0 x2) x1) (val_main_v44 (F := Ideal) x3)

/-- The second layer's result. -/
def out0 (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal))
    (x4 : (⟨S64x32, .f32⟩ : BufTy).Contents (Elt Ideal)) (x5 : (⟨S32, .f32⟩ : BufTy).Contents (Elt Ideal)) :
    (⟨S100000x32, .f32⟩ : BufTy).Contents (Elt Ideal) :=
  bias32 (F := Ideal) (agg32 (F := Ideal) (mm2 (out1 x0 x1 x2 x3) x4) x1) (val_main_v92 (F := Ideal) x5)

/-- The reference's first result is `out1` of its arguments. -/
theorem ref_out1 (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal)) :
    val_main_v47 (F := Ideal) x0 x1 x2 x3 = out1 x0 x1 x2 x3 := by
  rw [ref_biasRelu64, ref_agg64, ref_mm1]; rfl

/-- The reference's second result is `out0` of its arguments. -/
theorem ref_out0 (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal))
    (x4 : (⟨S64x32, .f32⟩ : BufTy).Contents (Elt Ideal)) (x5 : (⟨S32, .f32⟩ : BufTy).Contents (Elt Ideal)) :
    val_main_v94 (F := Ideal) x0 x1 x2 x3 x4 x5 = out0 x0 x1 x2 x3 x4 x5 := by
  rw [ref_bias32, ref_agg32, ref_mm2, ref_out1]; rfl

/-- A vector of 64 entries cast to a row `[1, 64]` is the vector broadcast along a new leading axis: entry
    `(0, j)` of either is entry `j`. -/
theorem row64 {F : FTy → Type} [FloatOps F] (x : (⟨S64, .f32⟩ : BufTy).Contents (Elt F)) (h : S64.ShapeCasts S1x64) :
    shapeCast S1x64 x h = val_main_v44 (F := F) x := by
  funext i
  rw [val_main_v44_apply]
  exact (shapeCast_addUnit_apply ![64] x h i).trans
    (congrArg x (funext fun a => Fin.ext (by match a with | ⟨0, _⟩ => rfl)))

/-- The same for 32 entries. -/
theorem row32 {F : FTy → Type} [FloatOps F] (x : (⟨S32, .f32⟩ : BufTy).Contents (Elt F)) (h : S32.ShapeCasts S1x32) :
    shapeCast S1x32 x h = val_main_v92 (F := F) x := by
  funext i
  rw [val_main_v92_apply]
  exact (shapeCast_addUnit_apply ![32] x h i).trans
    (congrArg x (funext fun a => Fin.ext (by match a with | ⟨0, _⟩ => rfl)))

end Spec

/-! ## The kernel program's two result arrays -/

section Kernel
open Cert.KernelIdeal Cert.KernelIdeal.Gen

variable (m : (ℓ : Loc nD τ sig) → Buf (Elt Ideal) ℓ) (ρ : Dev nD → PrngReg)

/-- Region 0 leaves the product `X · W₁`. -/
theorem W1_v0 (c : Dev nD) : W1 m ρ c (Proc.devRef .tc main_v0)
    = mm1 (m ((c : Thread nD τ).loc main_arg0)) (m ((c : Thread nD τ).loc main_arg2)) :=
  (W1_arr m ρ c 2).trans (region0_value (V0 m ρ) c)

/-- Region 1 leaves the first layer's result. -/
theorem kernel_out1 (c : Dev nD) : W5 m ρ c (Proc.devRef .tc main_v45)
    = out1 (m ((c : Thread nD τ).loc main_arg0)) (m ((c : Thread nD τ).loc main_arg1))
        (m ((c : Thread nD τ).loc main_arg2)) (m ((c : Thread nD τ).loc main_arg3)) :=
  calc W5 m ρ c (Proc.devRef .tc main_v45)
    _ = (dat1 (V4 m ρ) c).arrAt 2 cfg1.N := W5_arr m ρ c 2
    _ = biasRelu64 (F := Ideal) (W4 m ρ c (Proc.devRef .tc main_v43)) (W4 m ρ c (Proc.devRef .tc main_v44)) :=
        region1_value (V4 m ρ) c
    _ = biasRelu64 (F := Ideal) (agg64 (F := Ideal) (W1 m ρ c (Proc.devRef .tc main_v0)) (W1 m ρ c (Proc.devRef .tc main_arg1)))
          (shapeCast S1x64 (W1 m ρ c (Proc.devRef .tc main_arg3)) shapeCasts_S64_S1x64) := by
        rw [W4_v43, W4_v44]
    _ = _ := by
        rw [W1_v0, W1_arg1, W1_arg3, row64]; rfl

/-- Region 2 leaves the product `out₁ · W₂`. -/
theorem W6_v46 (c : Dev nD) : W6 m ρ c (Proc.devRef .tc main_v46)
    = mm2 (W5 m ρ c (Proc.devRef .tc main_v45)) (W5 m ρ c (Proc.devRef .tc main_arg4)) :=
  (W6_arr m ρ c 2).trans (region2_value (V5 m ρ) c)

/-- Region 3 leaves the second layer's result. -/
theorem kernel_out0 (c : Dev nD) : W10 m ρ c (Proc.devRef .tc main_v91)
    = out0 (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) :=
  calc W10 m ρ c (Proc.devRef .tc main_v91)
    _ = (dat3 (V9 m ρ) c).arrAt 2 cfg3.N := W10_arr m ρ c 2
    _ = bias32 (F := Ideal) (W9 m ρ c (Proc.devRef .tc main_v89)) (W9 m ρ c (Proc.devRef .tc main_v90)) :=
        region3_value (V9 m ρ) c
    _ = bias32 (F := Ideal) (agg32 (F := Ideal) (W6 m ρ c (Proc.devRef .tc main_v46)) (W6 m ρ c (Proc.devRef .tc main_arg1)))
          (shapeCast S1x32 (W6 m ρ c (Proc.devRef .tc main_arg5)) shapeCasts_S32_S1x32) := by
        rw [W9_v89, W9_v90]
    _ = _ := by
        rw [W6_v46, W6_arg1, W6_arg5, row32, kernel_out1, W5_arg4]; rfl

end Kernel

end Cert.GCN

end
-- ==== Proof.lean ====
/-
  The certificate of a two-layer graph convolution: a Pallas kernel program of four regions (the two dense products
  on row blocks by the matrix unit with operands rounded to bf16, the two bias epilogues, the first with a rectifier)
  around host gather/scatter aggregations, against a plain reference that computes the same layers with
  `dot_general`, a broadcast bias and `relu`.

  The three frames are the generated ones: the two kernel programs' whole frame certificates, and the reference's
  run with its results dropped.  The ideal pass rewrote nothing, so the idealized kernel program is the kernel
  program's own text read on the extended reals and `preserves` is trivial.  The value claim: read on the extended
  reals, where a change of float format is the identity, both programs end with

      out₁ = max (A (X · W₁) + b₁) 0          out₀ = A (out₁ · W₂) + b₂

  (`A` the degree-normalised sum over the edges, one function of the features and the edge list on both sides) —
  Proof/Assemble.lean; the kernel's run with its result arrays named is Proof/KernelRun.lean, the reference's is its
  run read back (Proof/RefRun.lean).
-/
import proofs.«113141_j6502580486167_1_alg».proof.Defs
import proofs.«113141_j6502580486167_1_alg».proof.Proof.Gen.Kernel
import proofs.«113141_j6502580486167_1_alg».proof.Proof.Gen.Kernel.Skeleton
import proofs.«113141_j6502580486167_1_alg».proof.Proof.Gen.Kernel.Launch
import proofs.«113141_j6502580486167_1_alg».proof.Proof.Gen.Kernel.Points
import proofs.«113141_j6502580486167_1_alg».proof.Proof.Gen.Kernel.Frame
import proofs.«113141_j6502580486167_1_alg».proof.Proof.Gen.KernelIdeal
import proofs.«113141_j6502580486167_1_alg».proof.Proof.Gen.KernelIdeal.Skeleton
import proofs.«113141_j6502580486167_1_alg».proof.Proof.Gen.KernelIdeal.Launch
import proofs.«113141_j6502580486167_1_alg».proof.Proof.Gen.KernelIdeal.Points
import proofs.«113141_j6502580486167_1_alg».proof.Proof.Gen.KernelIdeal.Frame
import proofs.«113141_j6502580486167_1_alg».proof.Proof.Gen.ReferenceIdeal
import proofs.«113141_j6502580486167_1_alg».proof.Proof.Gen.Pre_finite_inputs
import proofs.«113141_j6502580486167_1_alg».proof.Proof.RefRun
import proofs.«113141_j6502580486167_1_alg».proof.Proof.RefRead
import proofs.«113141_j6502580486167_1_alg».proof.Proof.Assemble
import Idealize.ShloMosaic.Adequacy
import Idealize.ShloMosaic.Init

noncomputable section

namespace Cert.Proof

open Idealize.ShloMosaic Idealize.ShloMosaic.TcCoe Idealize.SL.Sem

/-- The kernel program runs and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments as launched: its run, the two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- The ideal pass rewrote no operation. -/
theorem preserves : Cert.preserves_Kernel_KernelIdeal := trivial

/-- On the extended reals, from memories that agree on the six arguments, both programs end with the second
    layer's result `out0` and the first layer's result `out1` of those arguments. -/
theorem algebraic : Cert.algebraic_KernelIdeal_ReferenceIdeal := by
  intro m ρ m' ρ' _ hagree
  refine ⟨fun c => Cert.GCN.out0 (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    fun c => Cert.GCN.out1 (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ?_) (Cert.GCN.kernel_run (F := Ideal) m ρ)
    obtain ⟨h91, h45, h0, h1, h2, h3, h4, h5⟩ := h c
    exact ⟨h91.trans (Cert.GCN.kernel_out0 m ρ c),
      h45.trans ((Cert.GCN.W10_v45 m ρ c).trans (Cert.GCN.kernel_out1 m ρ c)), h0, h1, h2, h3, h4, h5⟩
  · refine (θ_run Cert.ReferenceIdeal.defs _ _).mono (fun r h c => ?_) (Cert.ReferenceIdeal.ValueP.run (F := Ideal) m' ρ')
    obtain ⟨h94, h47, h0, h1, h2, h3, h4, h5⟩ := h c
    obtain ⟨e0, e1, e2, e3, e4, e5⟩ := hagree c
    refine ⟨h94.trans ?_, h47.trans ?_, h0, h1, h2, h3, h4, h5⟩
    · rw [Cert.ReferenceIdeal.ReadP.val_main_v94_eq, Cert.GCN.ref_out0, e0, e1, e2, e3, e4, e5]
    · rw [Cert.ReferenceIdeal.ReadP.val_main_v47_eq, Cert.GCN.ref_out1, e0, e1, e2, e3]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
